-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256x128 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x256 .f32) (main_arg3 : FVec F S128x256 .f32) (main_arg4 : FVec F S256 .f32) (main_arg5 : FVec F S256x128 .f32) (main_arg6 : FVec F S256x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S800000x256 : Shape := ⟨2, ![800000, 256]⟩
abbrev S1x128 : Shape := ⟨2, ![1, 128]⟩
abbrev S2000 : Shape := ⟨1, ![2000]⟩
abbrev S2000x1 : Shape := ⟨2, ![2000, 1]⟩

abbrev nBuf : Space → Nat
  | .hbm => 57
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x256, .f32⟩
  | .hbm, ⟨38, _⟩ => ⟨S50000x256, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x256, .f32⟩
  | .hbm, ⟨48, _⟩ => ⟨S_, .f32⟩
  | .hbm, ⟨49, _⟩ => ⟨S50000x256, .f32⟩
  | .hbm, ⟨50, _⟩ => ⟨S800000x1, .i32⟩
  | .hbm, ⟨51, _⟩ => ⟨S50000x256, .f32⟩
  | .hbm, ⟨52, _⟩ => ⟨S50000x1, .f32⟩
  | .hbm, ⟨53, _⟩ => ⟨S50000x256, .f32⟩
  | .hbm, ⟨54, _⟩ => ⟨S50000x256, .f32⟩
  | .hbm, ⟨55, _⟩ => ⟨S1x128, .f32⟩
  | .hbm, ⟨56, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v37) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 100
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x256, .f32⟩
  | .hbm, ⟨38, _⟩ => ⟨S1x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S_, .f32⟩
  | .hbm, ⟨65, _⟩ => ⟨S800000, .f32⟩
  | .hbm, ⟨66, _⟩ => ⟨S_, .f32⟩
  | .hbm, ⟨67, _⟩ => ⟨S50000, .f32⟩
  | .hbm, ⟨68, _⟩ => ⟨S800000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x256, .f32⟩
  | .hbm, ⟨75, _⟩ => ⟨S50000x256, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000, .f32⟩
  | .hbm, ⟨85, _⟩ => ⟨S50000x1, .f32⟩
  | .hbm, ⟨86, _⟩ => ⟨S50000x1, .f32⟩
  | .hbm, ⟨87, _⟩ => ⟨S_, .f32⟩
  | .hbm, ⟨88, _⟩ => ⟨S50000x1, .f32⟩
  | .hbm, ⟨89, _⟩ => ⟨S50000x1, .f32⟩
  | .hbm, ⟨90, _⟩ => ⟨S50000x128, .f32⟩
  | .hbm, ⟨91, _⟩ => ⟨S50000x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S_, .f32⟩
  | .hbm, ⟨98, _⟩ => ⟨S50000x128, .f32⟩
  | .hbm, ⟨99, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call0_v0 : Ref sig .tc := ⟨.hbm, 82, rfl⟩
abbrev main_call0_cst : Ref sig .tc := ⟨.hbm, 83, rfl⟩
abbrev main_call0_v1 : Ref sig .tc := ⟨.hbm, 84, rfl⟩
abbrev main_call0_v2 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_13 : Ref sig .tc := ⟨.hbm, 94, rfl⟩
abbrev main_v67 : Ref sig .tc := ⟨.hbm, 95, rfl⟩
abbrev main_v68 : Ref sig .tc := ⟨.hbm, 96, rfl⟩
abbrev main_cst_14 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.LibDenseOps.lean ====
/-
  General lemmas: the operations of a dense layer read at an index written with `ix1` / `ix2`, at the ideal values.

  * a vector `[a]` cast to a column `[a, 1]`, and a column `[a, 1]` broadcast over `b` columns (the two "keepdims"
    layout steps around a row reduction);
  * a plain matrix product `[a, k] × [k, b]` into a zero accumulator as the sum over `Fin k` of the products;
  * a lane sum and a lane maximum of an `[a, b]` array (the reduction over axis 1) as a sum and a fold over `Fin b`;
  * the host's maximum-reduce over axis 1 as the same fold.
  Nothing here mentions a program: the extents are variables and the dimension records are hypotheses.
-/
import Idealize.ShloMosaic.Lib.ValueLayout
import Idealize.ShloMosaic.Lib.ValueIdx
import Idealize.ShloMosaic.PureOps.Ideal.Laws

noncomputable section

namespace Cert.LibDenseOps

open Idealize.ShloMosaic Idealize.ShloMosaic.ValueIdx

variable {α : Type}

/-- An `[a]` array cast to a column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A matrix product of an `[a, k]` by a `[k, b]` array into the zero accumulator, whose dimension record contracts
    the left operand's columns against the right operand's rows (the four coordinate facts), is at `(p, j)` the sum over
    `q` of `L (p, q) · R (q, j)`. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, b]⟩ φ₂) (p : Fin a) (j : Fin b) :
    FloatOps.matmul D prec L R (constant ⟨2, ![a, b]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- The reduced index `p` of an `[a, b]` array with lane `c` put back on axis 1 is `(p, c)`. -/
theorem lift_lane {a b : ℕ} (h : (⟨2, ![a, b]⟩ : Shape).Reduces [1] (⟨1, ![a]⟩ : Shape)) (p : Fin a)
    (c : Fin ((⟨2, ![a, b]⟩ : Shape).size 1)) : h.lift (ix1 p) c = ix2 p (⟨c.val, c.isLt⟩ : Fin b) := by
  funext ax; apply Fin.ext
  fin_cases ax <;> rfl

/-- A lane sum of an `[a, b]` array, read at row `p`: the sum over the row. -/
theorem laneSum_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.add.neutral .f32 hφ) (p : Fin a) :
    multiReduction .add [1] ⟨1, ![a]⟩ src acc h hφ hacc (ix1 p) = ∑ c : Fin b, src (ix2 p c) := by
  refine (Ideal.multiReduction_add_single src acc h hφ hacc (ix1 p)).trans ?_
  exact Finset.sum_congr rfl fun c _ => congrArg src (lift_lane h p c)

/-- A lane maximum of an `[a, b]` array, read at row `p`: the fold of `max` over the row from the accumulator's value. -/
theorem laneMax_apply {a b : ℕ} (src : FVec Ideal ⟨2, ![a, b]⟩ .f32) (acc : BitVec 32)
    (h : (⟨2, ![a, b]⟩ : Shape).Reduces [1] (⟨1, ![a]⟩ : Shape)) (hφ : FKind.Formats .f32) (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun c => src (ix2 p c)) := by
  refine (Ideal.multiReduction_maximumf_single src acc h hφ hacc (ix1 p)).trans ?_
  have hf : (src ∘ h.lift (ix1 p)) = fun c : Fin b => src (ix2 p c) := funext fun c => congrArg src (lift_lane h p c)
  exact congrArg (fun f => Finset.fold max (Ideal.ofBits .f32 acc) f (Finset.univ : Finset (Fin b))) hf

/-- The host's reduce with a maximum body over axis 1 of an `[a, b]` array, read at row `p`: the same fold from the
    initial value. -/
theorem hostRowMax_apply {a b : ℕ} (x : FVec Ideal ⟨2, ![a, b]⟩ .f32) (init : (⟨0, ![]⟩ : Shape).Idx → Ideal .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (p : Fin a) :
    Host.reduce FloatOps.maximumf x init h' hu (ix1 p)
      = (Finset.univ : Finset (Fin b)).fold max (init (Shape.Idx.first hu)) (fun c => x (ix2 p c)) := by
  rw [Host.reduce_eq_fold_single FloatOps.maximumf x init h' h hu]
  have hf : (x ∘ h.lift (ix1 p)) = fun c : Fin b => x (ix2 p c) := funext fun c => congrArg x (lift_lane h p c)
  exact congrArg (fun f => Finset.fold max (init (Shape.Idx.first hu)) f (Finset.univ : Finset (Fin b))) hf

end Cert.LibDenseOps

end
-- ==== Proof.LibColumnRow.lean ====
/-
  One-column and one-row arrays, read at an index.

  A per-row quantity (one number per row of a matrix: a node's degree factor, a row's maximum, a row's sum) is
  held as a one-column array [a, 1] and used by laying it along every row of an [a, b] matrix; a per-column
  quantity (a bias) is held as a one-row array [1, n]. A vector of length a becomes such a column either by a
  reshape (the row-major position is kept, and position p of the column is entry p) or by a broadcast along
  axis 0; a vector of length n becomes a row by a reshape or by a broadcast along axis 1. The lemmas below read
  each of these at an index (p, c), and say that the reshape and the broadcast of a vector into a column, and into
  a row, are the same array.
-/
import Idealize.ShloMosaic.Lib.Pipeline.Value
import Idealize.ShloMosaic.Lib.ValueIdx
import Idealize.ShloMosaic.Lib.ValueLayout

namespace Cert.LibColumnRow

open Idealize.ShloMosaic Idealize.ShloMosaic.ValueIdx

variable {α : Type}

/-- A column [a, 1] laid along every row of an [a, b] array reads, at (p, c), the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector of length a reshaped into a column [a, 1] reads, at (p, u), the vector's entry p. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A vector of length a broadcast along axis 0 into a column [a, 1] reads, at (p, u), the vector's entry p. -/
theorem broadcastInDim_a_a1_apply {a : ℕ} (hd : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] hd x (ix2 p u) = x (ix1 p) := by
  refine broadcastInDim_apply ![0] hd x (ix2 p u) (ix1 p) fun ax => ?_
  match ax with
  | ⟨0, _⟩ =>
    show p.val = if a = 1 then 0 else p.val
    split
    · have := p.isLt; omega
    · rfl

/-- The reshape of a vector into a column is its broadcast along axis 0 into that column. -/
theorem shapeCast_col_eq_broadcastInDim {a : ℕ} (x : (⟨1, ![a]⟩ : Shape).Idx → α)
    (h : (⟨1, ![a]⟩ : Shape).ShapeCasts ⟨2, ![a, 1]⟩) (hd : (⟨1, ![a]⟩ : Shape).BroadcastsInDim ⟨2, ![a, 1]⟩ ![0]) :
    shapeCast ⟨2, ![a, 1]⟩ x h = broadcastInDim ⟨2, ![a, 1]⟩ ![0] hd x := by
  funext i
  obtain ⟨p, u, rfl⟩ : ∃ (p : Fin a) (u : Fin 1), i = ix2 p u := ⟨i 0, i 1, eq_ix2 i⟩
  rw [shapeCast_a_a1_apply, broadcastInDim_a_a1_apply]

/-- A vector of length n broadcast along axis 1 into a row [1, n] reads, at (u, c), the vector's entry c. -/
theorem broadcastInDim_n_1n_apply {n : ℕ} (hd : (⟨1, ![n]⟩ : Shape).BroadcastsInDim ⟨2, ![1, n]⟩ ![1])
    (x : (⟨1, ![n]⟩ : Shape).Idx → α) (u : Fin 1) (c : Fin n) :
    broadcastInDim ⟨2, ![1, n]⟩ ![1] hd x (ix2 u c) = x (ix1 c) := by
  refine broadcastInDim_apply ![1] hd x (ix2 u c) (ix1 c) fun ax => ?_
  match ax with
  | ⟨0, _⟩ =>
    show c.val = if n = 1 then 0 else c.val
    split
    · have := c.isLt; omega
    · rfl

/-- The reshape of a vector into a row is its broadcast along axis 1 into that row. -/
theorem shapeCast_row_eq_broadcastInDim {n : ℕ} (x : (⟨1, ![n]⟩ : Shape).Idx → α)
    (h : (⟨1, ![n]⟩ : Shape).ShapeCasts ⟨2, ![1, n]⟩) (hd : (⟨1, ![n]⟩ : Shape).BroadcastsInDim ⟨2, ![1, n]⟩ ![1]) :
    shapeCast ⟨2, ![1, n]⟩ x h = broadcastInDim ⟨2, ![1, n]⟩ ![1] hd x := by
  funext i
  obtain ⟨u, c, rfl⟩ : ∃ (u : Fin 1) (c : Fin n), i = ix2 u c := ⟨i 0, i 1, eq_ix2 i⟩
  rw [shapeCast_a_1a_apply, broadcastInDim_n_1n_apply]

end Cert.LibColumnRow
-- ==== Proof.LibSigmoidLayers.lean ====
/-
  The two layers of a mean-aggregation graph network, as functions of their operands read at an index, on the
  extended reals.

  Both layers start from the two-product dense map  y = s · wl + b + h · wr  of a matrix `s` of aggregated
  neighbour features and the matrix `h` of the nodes' own features (`affine2`). The first layer applies the
  logistic function to every entry of y. The second divides every row of y by the larger of the row's Euclidean
  length and a positive threshold, and then applies the logistic function.

  * `sigLayer`, `unitSigLayer`: the two layers as [a, n] arrays;
  * `coreSig_eq`, `coreUnitSig_eq`: the vector unit's chains — two matrix products into zero accumulators added,
    the bias row broadcast over the rows added LAST, for the second layer the lane sum of squares, its square root
    kept as a column, the maximum with the splat threshold, the column laid along the rows, the quotient — are
    those arrays. The only law used is that (u + v) + w = (u + w) + v on the extended reals, which holds with no
    finiteness condition;
  * `hostSig_eq`, `hostUnitSig_eq`: the host's spelling — product, plus the bias row laid along the rows, plus
    the second product; the logistic function written 1 / (1 + exp (−y)); the row's length as the square root of a
    sum of squares from a zero initial value kept as a column — is the same arrays;
  * `sigAt_congr`, `unitSigAt_congr`: entry (p, j) of either layer reads only row p of the two matrices (and for
    the second layer every column of the weights), so a block of rows of the layer is the layer of the block of rows.
-/
import proofs.«123754_j55989193671326_1_alg».proof.Proof.LibAffine
import proofs.«123754_j55989193671326_1_alg».proof.Proof.LibDenseOps
import proofs.«123754_j55989193671326_1_alg».proof.Proof.LibColumnRow
import Idealize.ShloMosaic.Lib.IdealHost

noncomputable section

namespace Cert.Sage

open Idealize.ShloMosaic Idealize.ShloMosaic.ValueIdx Cert.LibAffine

variable {a k n : ℕ}

/-- Entry (p, j) of the first layer: the logistic function of the dense map's entry. -/
def sigAt (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  Ideal.logistic (affine2At s h wl b wr p j)

/-- The first layer as an [a, n] array. -/
def sigLayer (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => sigAt s h wl b wr (i 0) (i 1)

/-- Entry j of a row divided by the larger of the row's Euclidean length and `eps`. -/
def unitAt (y : Fin n → EReal) (eps : EReal) (j : Fin n) : EReal :=
  Ideal.div (y j) (max (Ideal.sqrt (∑ c : Fin n, y c * y c)) eps)

/-- Entry (p, j) of the second layer. -/
def unitSigAt (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (eps : EReal) (p : Fin a) (j : Fin n) : Ideal .f32 :=
  Ideal.logistic (unitAt (fun c => affine2At s h wl b wr p c) eps j)

/-- The second layer as an [a, n] array. -/
def unitSigLayer (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (eps : EReal) : FVec Ideal ⟨2, ![a, n]⟩ .f32 :=
  fun i => unitSigAt s h wl b wr eps (i 0) (i 1)

/-- Entry (p, j) of the first layer reads only row p of the matrices. -/
theorem sigAt_congr {a' : ℕ} (S H : FVec Ideal ⟨2, ![a, k]⟩ .f32) (s h : FVec Ideal ⟨2, ![a', k]⟩ .f32)
    (wl : FVec Ideal ⟨2, ![k, n]⟩ .f32) (b : FVec Ideal ⟨2, ![1, n]⟩ .f32) (wr : FVec Ideal ⟨2, ![k, n]⟩ .f32)
    (p : Fin a') (p' : Fin a) (j : Fin n)
    (hs : ∀ q : Fin k, s (ix2 p q) = S (ix2 p' q)) (hh : ∀ q : Fin k, h (ix2 p q) = H (ix2 p' q)) :
    sigAt s h wl b wr p j = sigAt S H wl b wr p' j :=
  congrArg Ideal.logistic (affine2At_congr S H wl b wr s h wl b wr p p' j hs hh (fun _ => rfl) rfl (fun _ => rfl))

/-- Entry (p, j) of the second layer reads only row p of the matrices. -/
theorem unitSigAt_congr {a' : ℕ} (S H : FVec Ideal ⟨2, ![a, k]⟩ .f32) (s h : FVec Ideal ⟨2, ![a', k]⟩ .f32)
    (wl : FVec Ideal ⟨2, ![k, n]⟩ .f32) (b : FVec Ideal ⟨2, ![1, n]⟩ .f32) (wr : FVec Ideal ⟨2, ![k, n]⟩ .f32) (eps : EReal)
    (p : Fin a') (p' : Fin a) (j : Fin n)
    (hs : ∀ q : Fin k, s (ix2 p q) = S (ix2 p' q)) (hh : ∀ q : Fin k, h (ix2 p q) = H (ix2 p' q)) :
    unitSigAt s h wl b wr eps p j = unitSigAt S H wl b wr eps p' j := by
  have e : (fun c => affine2At s h wl b wr p c) = fun c => affine2At S H wl b wr p' c :=
    funext fun c => affine2At_congr S H wl b wr s h wl b wr p p' c hs hh (fun _ => rfl) rfl (fun _ => rfl)
  unfold unitSigAt
  rw [e]

/-- A block of a' rows of the first layer, the rows starting at row `off` of the matrices, is the first layer of the
    blocks of rows. -/
theorem sigLayer_rows {a' : ℕ} (S H : FVec Ideal ⟨2, ![a, k]⟩ .f32) (wl wr : FVec Ideal ⟨2, ![k, n]⟩ .f32)
    (b : FVec Ideal ⟨2, ![1, n]⟩ .f32) (s h : FVec Ideal ⟨2, ![a', k]⟩ .f32) (off : ℕ)
    (hs : ∀ (y : (⟨2, ![a', k]⟩ : Shape).Idx) (i : (⟨2, ![a, k]⟩ : Shape).Idx),
      (i 0).val = off + (y 0).val → (i 1).val = (y 1).val → s y = S i)
    (hh : ∀ (y : (⟨2, ![a', k]⟩ : Shape).Idx) (i : (⟨2, ![a, k]⟩ : Shape).Idx),
      (i 0).val = off + (y 0).val → (i 1).val = (y 1).val → h y = H i)
    (y : (⟨2, ![a', n]⟩ : Shape).Idx) (i : (⟨2, ![a, n]⟩ : Shape).Idx)
    (h0 : (i 0).val = off + (y 0).val) (h1 : (i 1).val = (y 1).val) :
    sigLayer s h wl b wr y = sigLayer S H wl b wr i := by
  obtain ⟨r, q, rfl⟩ : ∃ (r : Fin a') (q : Fin n), y = ix2 r q := ⟨y 0, y 1, eq_ix2 y⟩
  obtain ⟨p, j, rfl⟩ : ∃ (p : Fin a) (j : Fin n), i = ix2 p j := ⟨i 0, i 1, eq_ix2 i⟩
  obtain rfl : j = q := Fin.ext h1
  exact sigAt_congr S H s h wl b wr r p j (fun x => hs (ix2 r x) (ix2 p x) h0 rfl) (fun x => hh (ix2 r x) (ix2 p x) h0 rfl)

/-- The same for the second layer. -/
theorem unitSigLayer_rows {a' : ℕ} (S H : FVec Ideal ⟨2, ![a, k]⟩ .f32) (wl wr : FVec Ideal ⟨2, ![k, n]⟩ .f32)
    (b : FVec Ideal ⟨2, ![1, n]⟩ .f32) (eps : EReal) (s h : FVec Ideal ⟨2, ![a', k]⟩ .f32) (off : ℕ)
    (hs : ∀ (y : (⟨2, ![a', k]⟩ : Shape).Idx) (i : (⟨2, ![a, k]⟩ : Shape).Idx),
      (i 0).val = off + (y 0).val → (i 1).val = (y 1).val → s y = S i)
    (hh : ∀ (y : (⟨2, ![a', k]⟩ : Shape).Idx) (i : (⟨2, ![a, k]⟩ : Shape).Idx),
      (i 0).val = off + (y 0).val → (i 1).val = (y 1).val → h y = H i)
    (y : (⟨2, ![a', n]⟩ : Shape).Idx) (i : (⟨2, ![a, n]⟩ : Shape).Idx)
    (h0 : (i 0).val = off + (y 0).val) (h1 : (i 1).val = (y 1).val) :
    unitSigLayer s h wl b wr eps y = unitSigLayer S H wl b wr eps i := by
  obtain ⟨r, q, rfl⟩ : ∃ (r : Fin a') (q : Fin n), y = ix2 r q := ⟨y 0, y 1, eq_ix2 y⟩
  obtain ⟨p, j, rfl⟩ : ∃ (p : Fin a) (j : Fin n), i = ix2 p j := ⟨i 0, i 1, eq_ix2 i⟩
  obtain rfl : j = q := Fin.ext h1
  exact unitSigAt_congr S H s h wl b wr eps r p j (fun x => hs (ix2 r x) (ix2 p x) h0 rfl) (fun x => hh (ix2 r x) (ix2 p x) h0 rfl)

section Core

variable (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)

/-- The dense map as the vector unit adds it up: the two products first, the bias row last. -/
def coreDense (hb : (⟨2, ![1, n]⟩ : Shape).Broadcasts ⟨2, ![a, n]⟩) (prec : Option ContractPrecision)
    (s h : FVec Ideal ⟨2, ![a, k]⟩ .f32) (wl wr : FVec Ideal ⟨2, ![k, n]⟩ .f32) (b : FVec Ideal ⟨2, ![1, n]⟩ .f32) :
    FVec Ideal ⟨2, ![a, n]⟩ .f32 :=
  addf (addf (FloatOps.matmul D prec s wl (constant ⟨2, ![a, n]⟩ .f32 0x00000000#32))
    (FloatOps.matmul D prec h wr (constant ⟨2, ![a, n]⟩ .f32 0x00000000#32))) (broadcastTo ⟨2, ![a, n]⟩ b hb)

include hr hs hl0 hl1 hr0 hr1 in
theorem coreDense_ix2 (hb : (⟨2, ![1, n]⟩ : Shape).Broadcasts ⟨2, ![a, n]⟩) (prec : Option ContractPrecision)
    (s h : FVec Ideal ⟨2, ![a, k]⟩ .f32) (wl wr : FVec Ideal ⟨2, ![k, n]⟩ .f32) (b : FVec Ideal ⟨2, ![1, n]⟩ .f32)
    (p : Fin a) (j : Fin n) : coreDense D hb prec s h wl wr b (ix2 p j) = affine2At s h wl b wr p j := by
  unfold coreDense affine2At
  rw [addf_apply, addf_apply, coreDot_ix2 D hr hs hl0 hl1 hr0 hr1, coreDot_ix2 D hr hs hl0 hl1 hr0 hr1,
    broadcastTo_1b_ab_apply]
  exact add_right_comm _ _ _

include hr hs hl0 hl1 hr0 hr1 in
/-- The vector unit's first layer is `sigLayer`. -/
theorem coreSig_eq (hb : (⟨2, ![1, n]⟩ : Shape).Broadcasts ⟨2, ![a, n]⟩) (prec : Option ContractPrecision)
    (s h : FVec Ideal ⟨2, ![a, k]⟩ .f32) (wl wr : FVec Ideal ⟨2, ![k, n]⟩ .f32) (b : FVec Ideal ⟨2, ![1, n]⟩ .f32) :
    logistic (coreDense D hb prec s h wl wr b) = sigLayer s h wl b wr := by
  funext i
  obtain ⟨p, j, rfl⟩ : ∃ (p : Fin a) (j : Fin n), i = ix2 p j := ⟨i 0, i 1, eq_ix2 i⟩
  show Ideal.logistic (coreDense D hb prec s h wl wr b (ix2 p j)) = Ideal.logistic (affine2At s h wl b wr p j)
  rw [coreDense_ix2 D hr hs hl0 hl1 hr0 hr1]

include hr hs hl0 hl1 hr0 hr1 in
/-- The vector unit's second layer is `unitSigLayer`. -/
theorem coreUnitSig_eq (hb : (⟨2, ![1, n]⟩ : Shape).Broadcasts ⟨2, ![a, n]⟩) (prec : Option ContractPrecision)
    (hred : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hbc : (⟨2, ![a, 1]⟩ : Shape).Broadcasts ⟨2, ![a, n]⟩) (e : BitVec 32)
    (s h : FVec Ideal ⟨2, ![a, k]⟩ .f32) (wl wr : FVec Ideal ⟨2, ![k, n]⟩ .f32) (b : FVec Ideal ⟨2, ![1, n]⟩ .f32) :
    logistic (divf (coreDense D hb prec s h wl wr b)
        (broadcastTo ⟨2, ![a, n]⟩
          (maximumf (sqrt (shapeCast ⟨2, ![a, 1]⟩
              (multiReduction .add [1] ⟨1, ![a]⟩ (mulf (coreDense D hb prec s h wl wr b) (coreDense D hb prec s h wl wr b))
                0x00000000#32 hred hφ hacc) hc))
            (broadcast ⟨2, ![a, 1]⟩ (Scalar.ofBits .f32 e))) hbc))
      = unitSigLayer s h wl b wr (Ideal.ofBits .f32 e) := by
  funext i
  obtain ⟨p, j, rfl⟩ : ∃ (p : Fin a) (j : Fin n), i = ix2 p j := ⟨i 0, i 1, eq_ix2 i⟩
  show Ideal.logistic (Ideal.div (coreDense D hb prec s h wl wr b (ix2 p j)) (broadcastTo ⟨2, ![a, n]⟩ _ hbc (ix2 p j)))
    = Ideal.logistic (unitAt (fun c => affine2At s h wl b wr p c) (Ideal.ofBits .f32 e) j)
  rw [LibDenseOps.broadcastTo_a1_ab_apply, coreDense_ix2 D hr hs hl0 hl1 hr0 hr1]
  show Ideal.logistic (Ideal.div _ (max (Ideal.sqrt (shapeCast ⟨2, ![a, 1]⟩ _ hc (ix2 p (0 : Fin 1)))) (Ideal.ofBits .f32 e))) = _
  rw [LibDenseOps.shapeCast_a_a1_apply, LibDenseOps.laneSum_apply]
  unfold unitAt
  refine congrArg (fun t => Ideal.logistic (Ideal.div _ (max (Ideal.sqrt t) _))) (Finset.sum_congr rfl fun c _ => ?_)
  rw [mulf_apply, coreDense_ix2 D hr hs hl0 hl1 hr0 hr1]

end Core

section Host

variable (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)

/-- The logistic function as the host spells it, 1 / (1 + exp (−y)) with the ones splat constants. -/
def hostLogistic {T : Shape} (h1 : (⟨0, ![]⟩ : Shape).BroadcastsInDim T ![]) (y : FVec Ideal T .f32) : FVec Ideal T .f32 :=
  Host.divf (broadcastInDim T ![] h1 (constant (F := Ideal) ⟨0, ![]⟩ .f32 0x3F800000#32))
    (addf (broadcastInDim T ![] h1 (constant (F := Ideal) ⟨0, ![]⟩ .f32 0x3F800000#32)) (Host.exp (Host.negf y)))

theorem hostLogistic_apply {T : Shape} (h1 : (⟨0, ![]⟩ : Shape).BroadcastsInDim T ![]) (y : FVec Ideal T .f32) (i : T.Idx) :
    hostLogistic h1 y i = Ideal.logistic (y i) := by
  unfold hostLogistic
  rw [hostDivf_apply, addf_apply, broadcastInDim_scalar_apply, constant_apply, Ideal.ofBits_one_f32]
  rfl

include hr hs hl0 hl1 hr0 hr1 in
/-- The host's first layer is `sigLayer`. -/
theorem hostSig_eq (hd : (⟨2, ![1, n]⟩ : Shape).BroadcastsInDim ⟨2, ![a, n]⟩ ![0, 1])
    (h1 : (⟨0, ![]⟩ : Shape).BroadcastsInDim ⟨2, ![a, n]⟩ ![]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    hostLogistic h1 (addf (addf (Host.dotGeneral D prec s wl) (broadcastInDim ⟨2, ![a, n]⟩ ![0, 1] hd b)) (Host.dotGeneral D prec h wr))
      = sigLayer s h wl b wr := by
  funext i
  rw [hostLogistic_apply, hostAffine2_eq D hr hs hl0 hl1 hr0 hr1]
  rfl

/-- A column [a, 1] laid along every row of an [a, n] array by a broadcast along both axes reads, at (p, c), the
    column's entry p. -/
theorem broadcastInDim_a1_an_apply {α : Type} (hd : (⟨2, ![a, 1]⟩ : Shape).BroadcastsInDim ⟨2, ![a, n]⟩ ![0, 1])
    (v : (⟨2, ![a, 1]⟩ : Shape).Idx → α) (p : Fin a) (c : Fin n) :
    broadcastInDim ⟨2, ![a, n]⟩ ![0, 1] hd v (ix2 p c) = v (ix2 p (0 : Fin 1)) := by
  refine broadcastInDim_apply ![0, 1] hd v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- The host's square root at an index. -/
theorem hostSqrt_apply {T : Shape} (v : FVec Ideal T .f32) (i : T.Idx) : Host.sqrt v i = Ideal.sqrt (v i) := rfl

/-- The host's sum over axis 1 of an [a, n] array from a zero initial value, read at row p: the sum over the row. -/
theorem hostRowSum_apply (x : FVec Ideal ⟨2, ![a, n]⟩ .f32)
    (hrt : (⟨2, ![a, n]⟩ : Shape).ReducesTo [1] (⟨1, ![a]⟩ : Shape)) (hred : (⟨2, ![a, n]⟩ : Shape).Reduces [1] (⟨1, ![a]⟩ : Shape))
    (hu : 0 < (⟨0, ![]⟩ : Shape).numel) (p : Fin a) :
    Host.reduceAdd x (constant (F := Ideal) ⟨0, ![]⟩ .f32 0x00000000#32) hrt hu (ix1 p) = ∑ c : Fin n, x (ix2 p c) := by
  simp only [Host.reduceAdd, Ideal.hostReduceAdd_def]
  rw [Ideal.hostReduceAdd_single hrt hred, constant_apply, Ideal.ofBits_zero_f32, zero_add]
  exact Finset.sum_congr rfl fun c _ => congrArg x (LibDenseOps.lift_lane hred p c)

include hr hs hl0 hl1 hr0 hr1 in
/-- The host's second layer is `unitSigLayer`. -/
theorem hostUnitSig_eq (hd : (⟨2, ![1, n]⟩ : Shape).BroadcastsInDim ⟨2, ![a, n]⟩ ![0, 1])
    (h1 : (⟨0, ![]⟩ : Shape).BroadcastsInDim ⟨2, ![a, n]⟩ ![])
    (hrt : (⟨2, ![a, n]⟩ : Shape).ReducesTo [1] (⟨1, ![a]⟩ : Shape)) (hred : (⟨2, ![a, n]⟩ : Shape).Reduces [1] (⟨1, ![a]⟩ : Shape))
    (hu : 0 < (⟨0, ![]⟩ : Shape).numel)
    (hcol : (⟨1, ![a]⟩ : Shape).BroadcastsInDim ⟨2, ![a, 1]⟩ ![0]) (he : (⟨0, ![]⟩ : Shape).BroadcastsInDim ⟨2, ![a, 1]⟩ ![])
    (hcb : (⟨2, ![a, 1]⟩ : Shape).BroadcastsInDim ⟨2, ![a, n]⟩ ![0, 1]) (e : BitVec 32) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32)
    (y : FVec Ideal ⟨2, ![a, n]⟩ .f32)
    (hy : y = addf (addf (Host.dotGeneral D prec s wl) (broadcastInDim ⟨2, ![a, n]⟩ ![0, 1] hd b)) (Host.dotGeneral D prec h wr)) :
    hostLogistic h1 (Host.divf y (broadcastInDim ⟨2, ![a, n]⟩ ![0, 1] hcb
        (maximumf (Host.sqrt (broadcastInDim ⟨2, ![a, 1]⟩ ![0] hcol
            (Host.reduceAdd (mulf y y) (constant (F := Ideal) ⟨0, ![]⟩ .f32 0x00000000#32) hrt hu)))
          (broadcastInDim ⟨2, ![a, 1]⟩ ![] he (constant (F := Ideal) ⟨0, ![]⟩ .f32 e)))))
      = unitSigLayer s h wl b wr (Ideal.ofBits .f32 e) := by
  have hy2 : y = affine2 s h wl b wr := hy.trans (hostAffine2_eq D hr hs hl0 hl1 hr0 hr1 hd prec s h wl b wr)
  funext i
  obtain ⟨p, j, rfl⟩ : ∃ (p : Fin a) (j : Fin n), i = ix2 p j := ⟨i 0, i 1, eq_ix2 i⟩
  rw [hostLogistic_apply, hostDivf_apply, broadcastInDim_a1_an_apply, maximumf_apply, hostSqrt_apply,
    LibColumnRow.broadcastInDim_a_a1_apply, hostRowSum_apply _ hrt hred hu, broadcastInDim_scalar_apply, constant_apply]
  subst hy2
  unfold unitSigLayer unitSigAt unitAt
  simp only [mulf_apply, affine2_ix2]
  rfl

end Host

end Cert.Sage

end
-- ==== Proof.RefLayers.lean ====
/-
  The reference's two layers, read as whole arrays at the extended reals.

  After the neighbour means are taken, the reference computes  mean · W_l + b + x · W_r  with the bias vector laid
  first into a row and then along the rows, and applies the logistic function written out as 1 / (1 + exp (−y)). For
  the second layer it first divides each row by the larger of its Euclidean length (the square root of a sum of
  squares kept as a column) and 1e-12 (the same word as the kernel's). These are the arrays `Cert.Sage.sigLayer` and
  `Cert.Sage.unitSigLayer` of the stages that feed them.
-/
import proofs.«123754_j55989193671326_1_alg».proof.Proof.Gen.ReferenceIdeal.Read
import proofs.«123754_j55989193671326_1_alg».proof.Proof.LibSigmoidLayers

noncomputable section

namespace Cert.ReferenceIdeal.Hand

open Cert.ReferenceIdeal Cert.ReferenceIdeal.Gen Cert.ReferenceIdeal.Read Idealize.ShloMosaic Idealize.ShloMosaic.TcCoe

/-- The reference's hidden layer is the first layer of the first neighbour means, the node features, the two
    weights and the bias laid into a row. -/
theorem layer1_eq (x0 : FVec Ideal S50000x128 .f32) (x1 : IVec S2x800000 32) (x2 x3 : FVec Ideal S128x256 .f32) (x4 : FVec Ideal S256 .f32) :
    val_main_v34 (F := Ideal) x0 x1 x2 x3 x4
      = Cert.Sage.sigLayer (val_main_v22 (F := Ideal) x0 x1) x0 x2 (val_main_v24 (F := Ideal) x4) x3 := by
  unfold val_main_v34 val_main_v33 val_main_cst_5 val_main_v32 val_main_v31 val_main_cst_4 val_main_v30 val_main_v29
    val_main_v28 val_main_v27 val_main_v26 val_main_v25 val_main_v23
  exact Cert.Sage.hostSig_eq dot_S50000x128_S128x256_S50000x256_1_0_0_1_n_n rfl rfl lhs_main_v23_0 lhs_main_v23_1
    rhs_main_v23_0 rhs_main_v23_1 bcast_S1x256_S50000x256_0_1 bcast_S_S50000x256 none
    (val_main_v22 (F := Ideal) x0 x1) x0 x2 (val_main_v24 (F := Ideal) x4) x3

/-- The reference's result is the second layer of the second neighbour means, the hidden layer, the two weights and
    the bias laid into a row. -/
theorem layer2_eq (x0 : FVec Ideal S50000x128 .f32) (x1 : IVec S2x800000 32) (x2 x3 : FVec Ideal S128x256 .f32) (x4 : FVec Ideal S256 .f32) (x5 x6 : FVec Ideal S256x128 .f32) (x7 : FVec Ideal S128 .f32) :
    val_main_v70 (F := Ideal) x0 x1 x2 x3 x4 x5 x6 x7
      = Cert.Sage.unitSigLayer (val_main_v53 (F := Ideal) x0 x1 x2 x3 x4) (val_main_v34 (F := Ideal) x0 x1 x2 x3 x4) x5
          (val_main_v55 (F := Ideal) x7) x6 (Ideal.ofBits .f32 0x2B8CBCCC#32) := by
  unfold val_main_v70 val_main_v69 val_main_cst_14 val_main_v68 val_main_v67 val_main_cst_13 val_main_v66 val_main_v65
    val_main_v64 val_main_v63 val_main_v62 val_main_v61 val_main_cst_12 val_main_v60 val_main_call0_v2 val_main_call0_v1
    val_main_call0_cst val_main_call0_v0
  exact Cert.Sage.hostUnitSig_eq dot_S50000x256_S256x128_S50000x128_1_0_0_1_n_n rfl rfl lhs_main_v54_0 lhs_main_v54_1
    rhs_main_v54_0 rhs_main_v54_1 bcast_S1x128_S50000x128_0_1 bcast_S_S50000x128 reducesTo_S50000x128_S50000_d1 (by decide) h_S_
    bcast_S50000_S50000x1_0 bcast_S_S50000x1 bcast_S50000x1_S50000x128_0_1 0x2B8CBCCC#32 none
    (val_main_v53 (F := Ideal) x0 x1 x2 x3 x4) (val_main_v34 (F := Ideal) x0 x1 x2 x3 x4) x5 (val_main_v55 (F := Ideal) x7) x6
    (val_main_v59 (F := Ideal) x0 x1 x2 x3 x4 x5 x6 x7)
    (by unfold val_main_v59 val_main_v58 val_main_v57 val_main_v56 val_main_v54; rfl)

/-- The neighbour mean of a [50000, 256] array along the edges, as the host computes it: the rows gathered at the edges'
    sources (a negative source counted from the end), added up at the edges' targets from zero, and each node's row
    divided by the node's count laid along the row. -/
def meanOf256 (x : FVec Ideal S50000x256 .f32) (src dst : IVec S800000 32) (cnt : FVec Ideal S50000 .f32) :
    FVec Ideal S50000x256 .f32 :=
  Host.divf
    (Host.scatterAdd scatter_S50000x256_S800000x1_S800000x256_1_0_0_1
      (broadcastInDim S50000x256 ![] bcast_S_S50000x256 (constant (F := Ideal) S_ .f32 0x00000000#32))
      (broadcastInDim S800000x1 ![0] bcast_S800000_S800000x1_0 dst)
      (Host.gather gather_S50000x256_S800000x1_S800000x256_1_0_n_n_0_1_1256 x
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1 (broadcastInDim S50000x1 ![0] bcast_S50000_S50000x1_0 cnt))

/-- The reference's second neighbour means are that mean of its hidden layer along its edges, with its node counts (the
    reference computes the counts a second time, by the same operations of the same edge array). -/
theorem mean2_eq (x0 : FVec Ideal S50000x128 .f32) (x1 : IVec S2x800000 32) (x2 x3 : FVec Ideal S128x256 .f32) (x4 : FVec Ideal S256 .f32) :
    val_main_v53 (F := Ideal) x0 x1 x2 x3 x4
      = meanOf256 (val_main_v34 (F := Ideal) x0 x1 x2 x3 x4) (val_main_v1 (F := Ideal) x1) (val_main_v3 (F := Ideal) x1)
          (val_main_v19 (F := Ideal) x1) := rfl

end Cert.ReferenceIdeal.Hand

end
-- ==== Proof.KernelHost.lean ====
/-
  The buffer contents at the boundaries of the kernel's @main, read at the extended reals.

  Before the first pallas_call the host splits the edge array into sources and targets, counts the edges into each
  node, takes the neighbour means of the node features along the edges and lays the first bias into a row; between
  the calls it takes the neighbour means of the first call's result along the same edges with the same counts and lays
  the second bias into a row. These are the same operations, on the same words, as the reference's stages
  (`Cert.ReferenceIdeal.Read.val_…`), so each buffer is named by the reference's stage of the launch arguments. The
  only difference is the bias row: the kernel reshapes the bias vector into a row where the reference broadcasts it
  along axis 1, which is the same row.
-/
import proofs.«123754_j55989193671326_1_alg».proof.Proof.Gen.KernelIdeal.Frame
import proofs.«123754_j55989193671326_1_alg».proof.Proof.RefLayers
import proofs.«123754_j55989193671326_1_alg».proof.Proof.LibColumnRow

set_option maxRecDepth 16384

noncomputable section

namespace Cert.KernelIdeal.Hand

open Cert.KernelIdeal Cert.KernelIdeal.Gen Idealize.ShloMosaic Idealize.ShloMosaic.TcCoe Idealize.SL.Sem
open Idealize.ShloMosaic.StableHlo
open Cert.ReferenceIdeal.Read (val_main_v1 val_main_v3 val_main_v19 val_main_v22 val_main_v24 val_main_v55)

variable (m : (ℓ : Loc nD τ sig) → Buf (Elt Ideal) ℓ) (ρ : Dev nD → PrngReg)

/-! ## On entry to the first call -/

theorem V1_arg0 (c : Dev nD) : V1 m ρ c main_arg0 = (m ((c : Thread nD τ).loc main_arg0)) := by
  show StableHlo.after hostOps0 (W0 m ρ c) (Proc.devRef .tc main_arg0) = _
  after_results_simp <;> rfl
theorem V1_arg2 (c : Dev nD) : V1 m ρ c main_arg2 = (m ((c : Thread nD τ).loc main_arg2)) := by
  show StableHlo.after hostOps0 (W0 m ρ c) (Proc.devRef .tc main_arg2) = _
  after_results_simp <;> rfl
theorem V1_arg3 (c : Dev nD) : V1 m ρ c main_arg3 = (m ((c : Thread nD τ).loc main_arg3)) := by
  show StableHlo.after hostOps0 (W0 m ρ c) (Proc.devRef .tc main_arg3) = _
  after_results_simp <;> rfl
theorem W1_arg5 (c : Dev nD) : W1 m ρ c (Proc.devRef .tc main_arg5) = (m ((c : Thread nD τ).loc main_arg5)) := by
  show StableHlo.after hostOps0 (W0 m ρ c) (Proc.devRef .tc main_arg5) = _
  after_results_simp <;> rfl
theorem W1_arg6 (c : Dev nD) : W1 m ρ c (Proc.devRef .tc main_arg6) = (m ((c : Thread nD τ).loc main_arg6)) := by
  show StableHlo.after hostOps0 (W0 m ρ c) (Proc.devRef .tc main_arg6) = _
  after_results_simp <;> rfl
theorem W1_arg7 (c : Dev nD) : W1 m ρ c (Proc.devRef .tc main_arg7) = (m ((c : Thread nD τ).loc main_arg7)) := by
  show StableHlo.after hostOps0 (W0 m ρ c) (Proc.devRef .tc main_arg7) = _
  after_results_simp <;> rfl

/-- The edges' sources. -/
theorem W1_v1 (c : Dev nD) : W1 m ρ c (Proc.devRef .tc main_v1) = val_main_v1 (F := Ideal) (m ((c : Thread nD τ).loc main_arg1)) := by
  show StableHlo.after hostOps0 (W0 m ρ c) (Proc.devRef .tc main_v1) = _
  after_results_simp <;> rfl
/-- The edges' targets. -/
theorem W1_v3 (c : Dev nD) : W1 m ρ c (Proc.devRef .tc main_v3) = val_main_v3 (F := Ideal) (m ((c : Thread nD τ).loc main_arg1)) := by
  show StableHlo.after hostOps0 (W0 m ρ c) (Proc.devRef .tc main_v3) = _
  after_results_simp <;> rfl
/-- The nodes' counts, at least one. -/
theorem W1_v9 (c : Dev nD) : W1 m ρ c (Proc.devRef .tc main_v9) = val_main_v19 (F := Ideal) (m ((c : Thread nD τ).loc main_arg1)) := by
  show StableHlo.after hostOps0 (W0 m ρ c) (Proc.devRef .tc main_v9) = _
  after_results_simp <;> rfl
/-- The first neighbour means. -/
theorem V1_v22 (c : Dev nD) : V1 m ρ c main_v22 = val_main_v22 (F := Ideal) (m ((c : Thread nD τ).loc main_arg0)) (m ((c : Thread nD τ).loc main_arg1)) := by
  show StableHlo.after hostOps0 (W0 m ρ c) (Proc.devRef .tc main_v22) = _
  after_results_simp <;> rfl
/-- The first bias as a row. -/
theorem V1_v23 (c : Dev nD) : V1 m ρ c main_v23 = val_main_v24 (F := Ideal) (m ((c : Thread nD τ).loc main_arg4)) := by
  have e : V1 m ρ c main_v23 = shapeCast S1x256 (m ((c : Thread nD τ).loc main_arg4)) shapeCasts_S256_S1x256 := by
    show StableHlo.after hostOps0 (W0 m ρ c) (Proc.devRef .tc main_v23) = _
    after_results_simp <;> rfl
  rw [e]
  exact Cert.LibColumnRow.shapeCast_row_eq_broadcastInDim _ shapeCasts_S256_S1x256 Cert.ReferenceIdeal.Facts₀.bcast_S256_S1x256_1

/-! ## Between the calls -/

theorem W3_arg5 (c : Dev nD) : V3 m ρ c main_arg5 = (m ((c : Thread nD τ).loc main_arg5)) := by
  show StableHlo.after hostOps1 (W2 m ρ c) (Proc.devRef .tc main_arg5) = _
  after_results
  exact (W2_of_ne m ρ c main_arg5 (by decide)).trans (W1_arg5 m ρ c)
theorem W3_arg6 (c : Dev nD) : V3 m ρ c main_arg6 = (m ((c : Thread nD τ).loc main_arg6)) := by
  show StableHlo.after hostOps1 (W2 m ρ c) (Proc.devRef .tc main_arg6) = _
  after_results
  exact (W2_of_ne m ρ c main_arg6 (by decide)).trans (W1_arg6 m ρ c)
/-- The first call's result is still in its buffer. -/
theorem W3_v24 (c : Dev nD) : V3 m ρ c main_v24 = W2 m ρ c (Proc.devRef .tc main_v24) := by
  show StableHlo.after hostOps1 (W2 m ρ c) (Proc.devRef .tc main_v24) = _
  after_results
/-- The second bias as a row. -/
theorem W3_v38 (c : Dev nD) : V3 m ρ c main_v38 = val_main_v55 (F := Ideal) (m ((c : Thread nD τ).loc main_arg7)) := by
  have e : V3 m ρ c main_v38 = shapeCast S1x128 (W2 m ρ c (Proc.devRef .tc main_arg7)) shapeCasts_S128_S1x128 := by
    show StableHlo.after hostOps1 (W2 m ρ c) (Proc.devRef .tc main_v38) = _
    after_results
    rfl
  rw [e, (W2_of_ne m ρ c main_arg7 (by decide)).trans (W1_arg7 m ρ c)]
  exact Cert.LibColumnRow.shapeCast_row_eq_broadcastInDim _ shapeCasts_S128_S1x128 Cert.ReferenceIdeal.Facts₀.bcast_S128_S1x128_1
set_option maxHeartbeats 2000000 in
/-- The second neighbour means: the mean along the edges of what the first call left. -/
theorem W3_v37 (c : Dev nD) : V3 m ρ c main_v37
    = Cert.ReferenceIdeal.Hand.meanOf256 (W2 m ρ c (Proc.devRef .tc main_v24)) (val_main_v1 (F := Ideal) (m ((c : Thread nD τ).loc main_arg1)))
        (val_main_v3 (F := Ideal) (m ((c : Thread nD τ).loc main_arg1))) (val_main_v19 (F := Ideal) (m ((c : Thread nD τ).loc main_arg1))) := by
  have e : V3 m ρ c main_v37
      = Cert.ReferenceIdeal.Hand.meanOf256 (W2 m ρ c (Proc.devRef .tc main_v24)) (W2 m ρ c (Proc.devRef .tc main_v1))
          (W2 m ρ c (Proc.devRef .tc main_v3)) (W2 m ρ c (Proc.devRef .tc main_v9)) := by
    show StableHlo.after hostOps1 (W2 m ρ c) (Proc.devRef .tc main_v37) = _
    after_results_simp <;> rfl
  rw [e, (W2_of_ne m ρ c main_v1 (by decide)).trans (W1_v1 m ρ c), (W2_of_ne m ρ c main_v3 (by decide)).trans (W1_v3 m ρ c),
    (W2_of_ne m ρ c main_v9 (by decide)).trans (W1_v9 m ρ c)]

end Cert.KernelIdeal.Hand

end
-- ==== Proof.KernelPayload.lean ====
/-
  The two pallas_calls of the kernel, read as whole arrays at the extended reals.

  Each call walks 25 grid points; point t stages rows 2000 t … 2000 t + 1999 of the aggregated-neighbour matrix and
  of the node matrix, the two weights and the bias row whole, and writes back rows 2000 t … 2000 t + 1999 of the
  result. What the body leaves at a point is the layer (`Cert.Sage.sigLayer`, `Cert.Sage.unitSigLayer`) of the staged
  blocks; since an entry of either layer reads only its own row of the two matrices, that is rows 2000 t … of the layer
  of the whole arrays; the 25 blocks tile the result, so the result array ends holding the layer of the arrays the
  call found on entry. Everything is stated at a parameter `V`, the buffer contents when the call is entered.
-/
import proofs.«123754_j55989193671326_1_alg».proof.Proof.Gen.KernelIdeal.Frame
import proofs.«123754_j55989193671326_1_alg».proof.Proof.LibSigmoidLayers
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The two matrix products' dimension records: which coordinates each operand is read at -/

theorem dotA_l0 (i : S2000x256.Idx) (q : dot_S2000x128_S128x256_S2000x256_1_0_0_1_n_n.contr.Idx) : (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem dotA_l1 (i : S2000x256.Idx) (q : dot_S2000x128_S128x256_S2000x256_1_0_0_1_n_n.contr.Idx) : (dot_S2000x128_S128x256_S2000x256_1_0_0_1_n_n.lhsIdx i q 1).val = (q ⟨0, by decide⟩).val :=
  dot_S2000x128_S128x256_S2000x256_1_0_0_1_n_n.lhsIdx_val_of_single rfl i q
theorem dotA_r0 (i : S2000x256.Idx) (q : dot_S2000x128_S128x256_S2000x256_1_0_0_1_n_n.contr.Idx) : (dot_S2000x128_S128x256_S2000x256_1_0_0_1_n_n.rhsIdx i q 0).val = (q ⟨0, by decide⟩).val :=
  dot_S2000x128_S128x256_S2000x256_1_0_0_1_n_n.rhsIdx_val_of_single rfl i q
theorem dotA_r1 (i : S2000x256.Idx) (q : dot_S2000x128_S128x256_S2000x256_1_0_0_1_n_n.contr.Idx) : (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

theorem dotB_l0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dotB_l1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem dotB_r0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem dotB_r1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-! ## The bodies' payloads are the layers of the staged blocks -/

/-- The first call's stored value is the first layer of its five loaded blocks. -/
theorem pay0_eq (x0 x1 : FVec Ideal S2000x128 .f32) (x2 x3 : FVec Ideal S128x256 .f32) (x4 : FVec Ideal S1x256 .f32) :
    k0_pay1 (F := Ideal) x0 x1 x2 x3 x4 = Cert.Sage.sigLayer x0 x1 x2 x4 x3 := by
  unfold k0_pay1
  simp only [shapeCast_self]
  exact Cert.Sage.coreSig_eq dot_S2000x128_S128x256_S2000x256_1_0_0_1_n_n rfl rfl dotA_l0 dotA_l1 dotA_r0 dotA_r1
    broadcasts_S1x256_S2000x256 none x0 x1 x2 x3 x4

/-- The second call's stored value is the second layer of its five loaded blocks. -/
theorem pay1_eq (x0 x1 : FVec Ideal S2000x256 .f32) (x2 x3 : FVec Ideal S256x128 .f32) (x4 : FVec Ideal S1x128 .f32) :
    k1_pay1 (F := Ideal) x0 x1 x2 x3 x4 = Cert.Sage.unitSigLayer x0 x1 x2 x4 x3 (Ideal.ofBits .f32 0x2B8CBCCC#32) := by
  unfold k1_pay1
  simp only [shapeCast_self]
  exact Cert.Sage.coreUnitSig_eq dot_S2000x256_S256x128_S2000x128_1_0_0_1_n_n rfl rfl dotB_l0 dotB_l1 dotB_r0 dotB_r1
    broadcasts_S1x128_S2000x128 none reduces_S2000x128_S2000 (.inl rfl) rfl shapeCasts_S2000_S2000x1 broadcasts_S2000x1_S2000x128
    0x2B8CBCCC#32 x0 x1 x2 x3 x4

end Cert.KernelIdeal.Hand

end
-- ==== Proof.KernelBlocks.lean ====
/-
  From the blocks of the two pallas_calls to their result arrays.

  Point t of either call stages rows 2000 t … 2000 t + 1999 of the aggregated-neighbour matrix and of the node matrix
  and the two weights and the bias row whole (`iblk…_apply`, `iblk…_eq`: each staged block read as entries of the
  array the call found). What it writes back is the layer of those blocks, which is rows 2000 t … of the layer of the
  whole arrays because an entry of a layer reads only its own row of the two matrices (`flushed…_eq`). The 25 row
  blocks tile the result array (`final…`). All at a parameter `V`, the buffer contents on entry to the call.
-/
import proofs.«123754_j55989193671326_1_alg».proof.Proof.KernelPayload

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The first call -/

/-- The printed index maps over the grid: the two matrices' windows and the result's move to row block t at point t,
    the weights' and the bias row's stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem iblk0_0_apply (c : Dev nD) (t : Fin cfg0.N) (y : S2000x128.Idx) (i : S50000x128.Idx)
    (h0 : (i 0).val = 2000 * t.val + (y 0).val) (h1 : (i 1).val = (y 1).val) :
    (iblk0 V c 0 t : FVec Ideal S2000x128 .f32) y = (V c main_v22 : FVec Ideal S50000x128 .f32) i := by
  obtain ⟨a0, a1, b0, b1, c0, c1, d0, d1, f0, f1, g0, g1⟩ := idx_facts0 t
  show V c main_v22 (((cfg0.win 0).blk t).view.emb y) = V c main_v22 i
  refine congrArg (V c main_v22) (funext fun a => Fin.ext ?_)
  match a with
  | ⟨0, _⟩ => show win0_0.index t (0 : Fin 2) * 2000 + 1 * (y 0).val = (i 0).val; rw [a0, h0]; omega
  | ⟨1, _⟩ => show win0_0.index t (1 : Fin 2) * 128 + 1 * (y 1).val = (i 1).val; rw [a1, h1]; omega

theorem iblk0_1_apply (c : Dev nD) (t : Fin cfg0.N) (y : S2000x128.Idx) (i : S50000x128.Idx)
    (h0 : (i 0).val = 2000 * t.val + (y 0).val) (h1 : (i 1).val = (y 1).val) :
    (iblk0 V c 1 t : FVec Ideal S2000x128 .f32) y = (V c main_arg0 : FVec Ideal S50000x128 .f32) i := by
  obtain ⟨a0, a1, b0, b1, c0, c1, d0, d1, f0, f1, g0, g1⟩ := idx_facts0 t
  show V c main_arg0 (((cfg0.win 1).blk t).view.emb y) = V c main_arg0 i
  refine congrArg (V c main_arg0) (funext fun a => Fin.ext ?_)
  match a with
  | ⟨0, _⟩ => show win0_1.index t (0 : Fin 2) * 2000 + 1 * (y 0).val = (i 0).val; rw [b0, h0]; omega
  | ⟨1, _⟩ => show win0_1.index t (1 : Fin 2) * 128 + 1 * (y 1).val = (i 1).val; rw [b1, h1]; omega

theorem iblk0_2_eq (c : Dev nD) (t : Fin cfg0.N) :
    (iblk0 V c 2 t : FVec Ideal S128x256 .f32) = (V c main_arg2 : FVec Ideal S128x256 .f32) := by
  obtain ⟨a0, a1, b0, b1, c0, c1, d0, d1, f0, f1, g0, g1⟩ := idx_facts0 t
  funext y
  show V c main_arg2 (((cfg0.win 2).blk t).view.emb y) = V c main_arg2 y
  refine congrArg (V c main_arg2) (funext fun a => Fin.ext ?_)
  match a with
  | ⟨0, _⟩ => show win0_2.index t (0 : Fin 2) * 128 + 1 * (y 0).val = (y 0).val; rw [c0]; omega
  | ⟨1, _⟩ => show win0_2.index t (1 : Fin 2) * 256 + 1 * (y 1).val = (y 1).val; rw [c1]; omega

theorem iblk0_3_eq (c : Dev nD) (t : Fin cfg0.N) :
    (iblk0 V c 3 t : FVec Ideal S128x256 .f32) = (V c main_arg3 : FVec Ideal S128x256 .f32) := by
  obtain ⟨a0, a1, b0, b1, c0, c1, d0, d1, f0, f1, g0, g1⟩ := idx_facts0 t
  funext y
  show V c main_arg3 (((cfg0.win 3).blk t).view.emb y) = V c main_arg3 y
  refine congrArg (V c main_arg3) (funext fun a => Fin.ext ?_)
  match a with
  | ⟨0, _⟩ => show win0_3.index t (0 : Fin 2) * 128 + 1 * (y 0).val = (y 0).val; rw [d0]; omega
  | ⟨1, _⟩ => show win0_3.index t (1 : Fin 2) * 256 + 1 * (y 1).val = (y 1).val; rw [d1]; omega

theorem iblk0_4_eq (c : Dev nD) (t : Fin cfg0.N) :
    (iblk0 V c 4 t : FVec Ideal S1x256 .f32) = (V c main_v23 : FVec Ideal S1x256 .f32) := by
  obtain ⟨a0, a1, b0, b1, c0, c1, d0, d1, f0, f1, g0, g1⟩ := idx_facts0 t
  funext y
  show V c main_v23 (((cfg0.win 4).blk t).view.emb y) = V c main_v23 y
  refine congrArg (V c main_v23) (funext fun a => Fin.ext ?_)
  match a with
  | ⟨0, _⟩ => show win0_4.index t (0 : Fin 2) * 1 + 1 * (y 0).val = (y 0).val; rw [f0]; omega
  | ⟨1, _⟩ => show win0_4.index t (1 : Fin 2) * 256 + 1 * (y 1).val = (y 1).val; rw [f1]; omega

/-- What point t writes back is rows 2000 t … 2000 t + 1999 of the layer of the arrays the call found. -/
theorem flushed0_eq (c : Dev nD) (t : Fin cfg0.N) :
    (dat0 V c).flushed 5 t = ((cfg0.win 5).blk t).view.read (Elt Ideal) (Cert.Sage.sigLayer (V c main_v22) (V c main_arg0) (V c main_arg2) (V c main_v23) (V c main_arg3)) := by
  obtain ⟨a0, a1, b0, b1, c0, c1, d0, d1, f0, f1, g0, g1⟩ := idx_facts0 t
  show (cfg0.win 5).cut (grid0.coords t) ((dat0 V c).after 5 t) = _
  rw [after0_5]
  unfold out0_5
  rw [View.canon_unit_zero hz]
  simp only [View.ld_unit_zero (S := S2000x128) hz, View.ld_unit_zero (S := S128x256) hz, View.ld_unit_zero (S := S1x256) hz]
  rw [pay0_eq, iblk0_2_eq V c t, iblk0_3_eq V c t, iblk0_4_eq V c t]
  funext j
  show Cert.Sage.sigLayer (iblk0 V c 0 t) (iblk0 V c 1 t) (V c main_arg2) (V c main_v23) (V c main_arg3) j
    = Cert.Sage.sigLayer (V c main_v22) (V c main_arg0) (V c main_arg2) (V c main_v23) (V c main_arg3) (((cfg0.win 5).blk t).view.emb j)
  refine Cert.Sage.sigLayer_rows (V c main_v22) (V c main_arg0) (V c main_arg2) (V c main_arg3) (V c main_v23) (iblk0 V c 0 t) (iblk0 V c 1 t) (2000 * t.val)
    (fun y i p q => iblk0_0_apply V c t y i p q) (fun y i p q => iblk0_1_apply V c t y i p q) j (((cfg0.win 5).blk t).view.emb j) ?_ ?_
  · show win0_5.index t (0 : Fin 2) * 2000 + 1 * (j 0).val = 2000 * t.val + (j 0).val
    rw [g0]; omega
  · show win0_5.index t (1 : Fin 2) * 256 + 1 * (j 1).val = (j 1).val
    rw [g1]; omega

/-- An index of the result array lies in point t's block iff each coordinate lies in the block's range. -/
theorem mem_blk0 (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- The 25 blocks tile the result (row r lies in block r / 2000), so after the call the result array is the layer of
    the arrays the call found on entry. -/
theorem final0 (c : Dev nD) : (dat0 V c).arrAt 5 cfg0.N = (Cert.Sage.sigLayer (V c main_v22) (V c main_arg0) (V c main_arg2) (V c main_v23) (V c main_arg3)) :=
  (dat0 V c).arrAt_eq_of_cover 5 (Cert.Sage.sigLayer (V c main_v22) (V c main_arg0) (V c main_arg2) (V c main_v23) (V c main_arg3)) (fun t _ => flushed0_eq V c t) fun i => by
    have hi0 : (i 0).val < 50000 := (i 0).isLt
    have hi1 : (i 1).val < 256 := (i 1).isLt
    have hN : cfg0.N = 25 := N_0
    have ht : (i 0).val / 2000 < cfg0.N := by rw [hN]; omega
    refine ⟨⟨(i 0).val / 2000, ht⟩, flush0_5 _, ?_⟩
    obtain ⟨a0, a1, b0, b1, c0, c1, d0, d1, f0, f1, g0, g1⟩ := idx_facts0 ⟨(i 0).val / 2000, ht⟩
    rw [mem_blk0]
    intro a
    match a with
    | ⟨0, _⟩ =>
      show win0_5.index ⟨(i 0).val / 2000, ht⟩ (0 : Fin 2) * 2000 ≤ (i 0).val ∧ (i 0).val < win0_5.index ⟨(i 0).val / 2000, ht⟩ (0 : Fin 2) * 2000 + 2000
      rw [g0]
      show (i 0).val / 2000 * 2000 ≤ (i 0).val ∧ (i 0).val < (i 0).val / 2000 * 2000 + 2000
      omega
    | ⟨1, _⟩ =>
      show win0_5.index ⟨(i 0).val / 2000, ht⟩ (1 : Fin 2) * 256 ≤ (i 1).val ∧ (i 1).val < win0_5.index ⟨(i 0).val / 2000, ht⟩ (1 : Fin 2) * 256 + 256
      rw [g1]
      omega

/-! ## The second call -/

/-- The printed index maps over the grid: the two matrices' windows and the result's move to row block t at point t,
    the weights' and the bias row's stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem iblk1_0_apply (c : Dev nD) (t : Fin cfg1.N) (y : S2000x256.Idx) (i : S50000x256.Idx)
    (h0 : (i 0).val = 2000 * t.val + (y 0).val) (h1 : (i 1).val = (y 1).val) :
    (iblk1 V c 0 t : FVec Ideal S2000x256 .f32) y = (V c main_v37 : FVec Ideal S50000x256 .f32) i := by
  obtain ⟨a0, a1, b0, b1, c0, c1, d0, d1, f0, f1, g0, g1⟩ := idx_facts1 t
  show V c main_v37 (((cfg1.win 0).blk t).view.emb y) = V c main_v37 i
  refine congrArg (V c main_v37) (funext fun a => Fin.ext ?_)
  match a with
  | ⟨0, _⟩ => show win1_0.index t (0 : Fin 2) * 2000 + 1 * (y 0).val = (i 0).val; rw [a0, h0]; omega
  | ⟨1, _⟩ => show win1_0.index t (1 : Fin 2) * 256 + 1 * (y 1).val = (i 1).val; rw [a1, h1]; omega

theorem iblk1_1_apply (c : Dev nD) (t : Fin cfg1.N) (y : S2000x256.Idx) (i : S50000x256.Idx)
    (h0 : (i 0).val = 2000 * t.val + (y 0).val) (h1 : (i 1).val = (y 1).val) :
    (iblk1 V c 1 t : FVec Ideal S2000x256 .f32) y = (V c main_v24 : FVec Ideal S50000x256 .f32) i := by
  obtain ⟨a0, a1, b0, b1, c0, c1, d0, d1, f0, f1, g0, g1⟩ := idx_facts1 t
  show V c main_v24 (((cfg1.win 1).blk t).view.emb y) = V c main_v24 i
  refine congrArg (V c main_v24) (funext fun a => Fin.ext ?_)
  match a with
  | ⟨0, _⟩ => show win1_1.index t (0 : Fin 2) * 2000 + 1 * (y 0).val = (i 0).val; rw [b0, h0]; omega
  | ⟨1, _⟩ => show win1_1.index t (1 : Fin 2) * 256 + 1 * (y 1).val = (i 1).val; rw [b1, h1]; omega

theorem iblk1_2_eq (c : Dev nD) (t : Fin cfg1.N) :
    (iblk1 V c 2 t : FVec Ideal S256x128 .f32) = (V c main_arg5 : FVec Ideal S256x128 .f32) := by
  obtain ⟨a0, a1, b0, b1, c0, c1, d0, d1, f0, f1, g0, g1⟩ := idx_facts1 t
  funext y
  show V c main_arg5 (((cfg1.win 2).blk t).view.emb y) = V c main_arg5 y
  refine congrArg (V c main_arg5) (funext fun a => Fin.ext ?_)
  match a with
  | ⟨0, _⟩ => show win1_2.index t (0 : Fin 2) * 256 + 1 * (y 0).val = (y 0).val; rw [c0]; omega
  | ⟨1, _⟩ => show win1_2.index t (1 : Fin 2) * 128 + 1 * (y 1).val = (y 1).val; rw [c1]; omega

theorem iblk1_3_eq (c : Dev nD) (t : Fin cfg1.N) :
    (iblk1 V c 3 t : FVec Ideal S256x128 .f32) = (V c main_arg6 : FVec Ideal S256x128 .f32) := by
  obtain ⟨a0, a1, b0, b1, c0, c1, d0, d1, f0, f1, g0, g1⟩ := idx_facts1 t
  funext y
  show V c main_arg6 (((cfg1.win 3).blk t).view.emb y) = V c main_arg6 y
  refine congrArg (V c main_arg6) (funext fun a => Fin.ext ?_)
  match a with
  | ⟨0, _⟩ => show win1_3.index t (0 : Fin 2) * 256 + 1 * (y 0).val = (y 0).val; rw [d0]; omega
  | ⟨1, _⟩ => show win1_3.index t (1 : Fin 2) * 128 + 1 * (y 1).val = (y 1).val; rw [d1]; omega

theorem iblk1_4_eq (c : Dev nD) (t : Fin cfg1.N) :
    (iblk1 V c 4 t : FVec Ideal S1x128 .f32) = (V c main_v38 : FVec Ideal S1x128 .f32) := by
  obtain ⟨a0, a1, b0, b1, c0, c1, d0, d1, f0, f1, g0, g1⟩ := idx_facts1 t
  funext y
  show V c main_v38 (((cfg1.win 4).blk t).view.emb y) = V c main_v38 y
  refine congrArg (V c main_v38) (funext fun a => Fin.ext ?_)
  match a with
  | ⟨0, _⟩ => show win1_4.index t (0 : Fin 2) * 1 + 1 * (y 0).val = (y 0).val; rw [f0]; omega
  | ⟨1, _⟩ => show win1_4.index t (1 : Fin 2) * 128 + 1 * (y 1).val = (y 1).val; rw [f1]; omega

/-- What point t writes back is rows 2000 t … 2000 t + 1999 of the layer of the arrays the call found. -/
theorem flushed1_eq (c : Dev nD) (t : Fin cfg1.N) :
    (dat1 V c).flushed 5 t = ((cfg1.win 5).blk t).view.read (Elt Ideal) (Cert.Sage.unitSigLayer (V c main_v37) (V c main_v24) (V c main_arg5) (V c main_v38) (V c main_arg6) (Ideal.ofBits .f32 0x2B8CBCCC#32)) := by
  obtain ⟨a0, a1, b0, b1, c0, c1, d0, d1, f0, f1, g0, g1⟩ := idx_facts1 t
  show (cfg1.win 5).cut (grid1.coords t) ((dat1 V c).after 5 t) = _
  rw [after1_5]
  unfold out1_5
  rw [View.canon_unit_zero hz]
  simp only [View.ld_unit_zero (S := S2000x256) hz, View.ld_unit_zero (S := S256x128) hz, View.ld_unit_zero (S := S1x128) hz]
  rw [pay1_eq, iblk1_2_eq V c t, iblk1_3_eq V c t, iblk1_4_eq V c t]
  funext j
  show Cert.Sage.unitSigLayer (iblk1 V c 0 t) (iblk1 V c 1 t) (V c main_arg5) (V c main_v38) (V c main_arg6) (Ideal.ofBits .f32 0x2B8CBCCC#32) j
    = Cert.Sage.unitSigLayer (V c main_v37) (V c main_v24) (V c main_arg5) (V c main_v38) (V c main_arg6) (Ideal.ofBits .f32 0x2B8CBCCC#32) (((cfg1.win 5).blk t).view.emb j)
  refine Cert.Sage.unitSigLayer_rows (V c main_v37) (V c main_v24) (V c main_arg5) (V c main_arg6) (V c main_v38) (Ideal.ofBits .f32 0x2B8CBCCC#32) (iblk1 V c 0 t) (iblk1 V c 1 t) (2000 * t.val)
    (fun y i p q => iblk1_0_apply V c t y i p q) (fun y i p q => iblk1_1_apply V c t y i p q) j (((cfg1.win 5).blk t).view.emb j) ?_ ?_
  · show win1_5.index t (0 : Fin 2) * 2000 + 1 * (j 0).val = 2000 * t.val + (j 0).val
    rw [g0]; omega
  · show win1_5.index t (1 : Fin 2) * 128 + 1 * (j 1).val = (j 1).val
    rw [g1]; omega

/-- An index of the result array lies in point t's block iff each coordinate lies in the block's range. -/
theorem mem_blk1 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v39).slice (win1_5.rect t)).set ↔ _
  rw [View.set_slice_whole, Rect.mem_set_unit]
  exact Iff.rfl

/-- The 25 blocks tile the result (row r lies in block r / 2000), so after the call the result array is the layer of
    the arrays the call found on entry. -/
theorem final1 (c : Dev nD) : (dat1 V c).arrAt 5 cfg1.N = (Cert.Sage.unitSigLayer (V c main_v37) (V c main_v24) (V c main_arg5) (V c main_v38) (V c main_arg6) (Ideal.ofBits .f32 0x2B8CBCCC#32)) :=
  (dat1 V c).arrAt_eq_of_cover 5 (Cert.Sage.unitSigLayer (V c main_v37) (V c main_v24) (V c main_arg5) (V c main_v38) (V c main_arg6) (Ideal.ofBits .f32 0x2B8CBCCC#32)) (fun t _ => flushed1_eq V c t) fun i => by
    have hi0 : (i 0).val < 50000 := (i 0).isLt
    have hi1 : (i 1).val < 128 := (i 1).isLt
    have hN : cfg1.N = 25 := N_1
    have ht : (i 0).val / 2000 < cfg1.N := by rw [hN]; omega
    refine ⟨⟨(i 0).val / 2000, ht⟩, flush1_5 _, ?_⟩
    obtain ⟨a0, a1, b0, b1, c0, c1, d0, d1, f0, f1, g0, g1⟩ := idx_facts1 ⟨(i 0).val / 2000, ht⟩
    rw [mem_blk1]
    intro a
    match a with
    | ⟨0, _⟩ =>
      show win1_5.index ⟨(i 0).val / 2000, ht⟩ (0 : Fin 2) * 2000 ≤ (i 0).val ∧ (i 0).val < win1_5.index ⟨(i 0).val / 2000, ht⟩ (0 : Fin 2) * 2000 + 2000
      rw [g0]
      show (i 0).val / 2000 * 2000 ≤ (i 0).val ∧ (i 0).val < (i 0).val / 2000 * 2000 + 2000
      omega
    | ⟨1, _⟩ =>
      show win1_5.index ⟨(i 0).val / 2000, ht⟩ (1 : Fin 2) * 128 ≤ (i 1).val ∧ (i 1).val < win1_5.index ⟨(i 0).val / 2000, ht⟩ (1 : Fin 2) * 128 + 128
      rw [g1]
      omega

end Cert.KernelIdeal.Hand

end
-- ==== Proof.KernelRun.lean ====
/-
  The kernel's run with its result array named.

  @main is four segments: the host operations before the first pallas_call, that call, the host operations between
  the calls, the second call. The buffer contents at the four boundaries are folds through @main from the launch memory
  (`Gen.W1` … `Gen.W4`). Every weakly fair execution terminates without a fault, and in the final memory every
  buffer that outlives a call holds the last boundary's contents; read at the result buffer this names the result,
  `Gen.W4 m ρ c main_v39`, and read at the argument buffers it says they are unchanged.
-/
import proofs.«123754_j55989193671326_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_named : θ_run defs (onTc (τ := τ) (main (F := F))) ⟨m, fun _ => 0, ρ⟩ (fun r => ∀ c : Dev nD,
      r.2.mem ((c.tc : Thread nD τ).loc main_v39) = W4 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v39 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.KernelValue.lean ====
/-
  The kernel's result is the reference's.

  The first pallas_call leaves the first layer of the arrays it found (`final0`), which are the reference's first
  neighbour means, the node features, the two weights and the bias row (`V1_…`): the reference's hidden layer
  (`layer1_eq`). The host then takes the neighbour means of that array along the same edges with the same counts,
  which is the reference's second mean stage (`mean2_eq`), and the second call leaves the second layer of these
  (`final1`): the reference's result (`layer2_eq`). So the run ends with the result buffer at the reference's last
  stage of the launch arguments.
-/
import proofs.«123754_j55989193671326_1_alg».proof.Proof.KernelHost
import proofs.«123754_j55989193671326_1_alg».proof.Proof.KernelBlocks
import proofs.«123754_j55989193671326_1_alg».proof.Proof.KernelRun

set_option maxRecDepth 16384

noncomputable section

namespace Cert.KernelIdeal.Hand

open Cert.KernelIdeal Cert.KernelIdeal.Gen Idealize.ShloMosaic Idealize.ShloMosaic.TcCoe Idealize.SL.Sem
open Cert.ReferenceIdeal.Read (val_main_v34 val_main_v70)

variable (m : (ℓ : Loc nD τ sig) → Buf (Elt Ideal) ℓ) (ρ : Dev nD → PrngReg)

/-- What the first call leaves in its result buffer is the reference's hidden layer of the launch arguments. -/
theorem W2_v24 (c : Dev nD) :
    W2 m ρ c (Proc.devRef .tc main_v24) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0 (V1 m ρ) c).trans ?_)
  rw [V1_v22 m ρ c, V1_arg0 m ρ c, V1_arg2 m ρ c, V1_v23 m ρ c, V1_arg3 m ρ c]
  exact (Cert.ReferenceIdeal.Hand.layer1_eq _ _ _ _ _).symm

/-- What the second call leaves in the result buffer is the reference's last stage of the launch arguments. -/
theorem result_eq (c : Dev nD) :
    W4 m ρ c (Proc.devRef .tc main_v39) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((final1 (V3 m ρ) c).trans ?_)
  rw [W3_v37 m ρ c, W3_v24 m ρ c, W3_arg5 m ρ c, W3_v38 m ρ c, W3_arg6 m ρ c, W2_v24 m ρ c,
    ← Cert.ReferenceIdeal.Hand.mean2_eq]
  exact (Cert.ReferenceIdeal.Hand.layer2_eq _ _ _ _ _ _ _ _).symm

/-- The kernel's run at the extended reals: it terminates without a fault, the result buffer at the reference's last
    stage of the launch arguments, the arguments unchanged. -/
theorem run : θ_run defs (onTc (τ := τ) (main (F := Ideal))) ⟨m, fun _ => 0, ρ⟩ (fun r => ∀ c : Dev nD,
      r.2.mem ((c.tc : Thread nD τ).loc main_v39) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run_named (F := Ideal) m ρ)

end Cert.KernelIdeal.Hand

end
-- ==== Proof.lean ====
/-
  A two-layer mean-aggregation graph network on 50000 nodes and 800000 edges: the kernel against its reference, at the
  extended reals.

  Both programs split the edge array into sources and targets, count the edges into each node (at least one), and
  take for every node the mean of its neighbours' feature rows (gather along the sources, add up at the targets,
  divide by the count). Layer one is  sigmoid (mean · W1_l + b1 + x · W1_r);  layer two takes the neighbour means of
  layer one's output, forms  y = mean · W2_l + b2 + x1 · W2_r,  divides every row of y by max (‖row‖, 1e-12) and
  applies the sigmoid.

  The kernel does the gathers, scatters and divisions on the host exactly as the reference does (computing the counts
  once where the reference computes them twice), and each dense layer in a pallas_call over 25 blocks of 2000 rows.
  The differences are: the order of the three summands (the kernel adds the bias last), which is commutativity and
  associativity of + on the extended reals and needs no finiteness; the tiling into row blocks, which is harmless
  because an entry of a layer reads only its own row of the two matrices; the sigmoid, one operation in the kernel and
  spelt 1 / (1 + exp (−y)) on the host, one function here; and the bias row, a reshape in the kernel and a broadcast
  on the host. The precondition (finite inputs) is never used.

  * frames: the kernel's two are the generated ones; the reference's is its generated run with the result dropped;
  * preserves: the ideal pass rewrote nothing;
  * algebraic: the kernel's run ends with the result buffer at the reference's last stage of the launch arguments
    (`Cert.KernelIdeal.Hand.run`), and so does the reference's own run.
-/
import proofs.«123754_j55989193671326_1_alg».proof.Defs
import proofs.«123754_j55989193671326_1_alg».proof.Proof.Gen.Kernel
import proofs.«123754_j55989193671326_1_alg».proof.Proof.Gen.Kernel.Skeleton
import proofs.«123754_j55989193671326_1_alg».proof.Proof.Gen.Kernel.Launch
import proofs.«123754_j55989193671326_1_alg».proof.Proof.Gen.Kernel.Points
import proofs.«123754_j55989193671326_1_alg».proof.Proof.Gen.Kernel.Frame
import proofs.«123754_j55989193671326_1_alg».proof.Proof.Gen.KernelIdeal
import proofs.«123754_j55989193671326_1_alg».proof.Proof.Gen.KernelIdeal.Skeleton
import proofs.«123754_j55989193671326_1_alg».proof.Proof.Gen.KernelIdeal.Launch
import proofs.«123754_j55989193671326_1_alg».proof.Proof.Gen.KernelIdeal.Points
import proofs.«123754_j55989193671326_1_alg».proof.Proof.Gen.KernelIdeal.Frame
import proofs.«123754_j55989193671326_1_alg».proof.Proof.Gen.ReferenceIdeal
import proofs.«123754_j55989193671326_1_alg».proof.Proof.Gen.ReferenceIdeal.Run
import proofs.«123754_j55989193671326_1_alg».proof.Proof.Gen.ReferenceIdeal.Read
import proofs.«123754_j55989193671326_1_alg».proof.Proof.Gen.Pre_finite_inputs
import proofs.«123754_j55989193671326_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with the result buffer at the reference's last stage
    of the (shared) arguments. -/
theorem algebraic : Cert.algebraic_KernelIdeal_ReferenceIdeal := by
  intro m ρ m' ρ' _ hagree
  refine ⟨fun c => Cert.ReferenceIdeal.Read.val_main_v70 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq]
  obtain ⟨e0, e1, e2, e3, e4, e5, e6, e7⟩ := hagree c
  rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
